-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x3 : Shape := ⟨2, ![1600000, 3]⟩
abbrev S1600000 : Shape := ⟨1, ![1600000]⟩
abbrev S128x131 : Shape := ⟨2, ![128, 131]⟩
abbrev S128 : Shape := ⟨1, ![128]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x3 : S_.BroadcastsInDim S1600000x3 (![] : Fin 0 → Fin S1600000x3.rank)
  reducesTo_S1600000x3_S_d0_1 : S1600000x3.ReducesTo [0, 1] S_
  bcast_S_S128x131 : S_.BroadcastsInDim S128x131 (![] : Fin 0 → Fin S128x131.rank)
  reducesTo_S128x131_S_d0_1 : S128x131.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg6 : FVec F S128x256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  main_v23

def fn {F : FTy → Type} [FloatOps F] (main_arg0 : FVec F S100000x128 .f32) (main_arg1 : FVec F S1600000x3 .f32) (main_arg2 : IVec S1600000 32) (main_arg3 : IVec S1600000 32) (main_arg4 : FVec F S128x131 .f32) (main_arg5 : FVec F S128 .f32) (main_arg6 : FVec F S128x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x3 .f32 := Host.absf main_arg1
  let main_cst_0 : FVec F S_ .f32 := constant S_ .f32 0x7F800000#32
  let main_v5 : FVec F S1600000x3 .f32 := broadcastInDim S1600000x3 ![] bcast_S_S1600000x3 main_cst_0
  let main_v6 : IVec S1600000x3 1 := cmpf .olt main_v4 main_v5
  let main_c_1 : IVec S_ 1 := constantI S_ 1 1#1
  let main_v7 : IVec S_ 1 := (fun x v => Host.reduce IntOp.andi x v reducesTo_S1600000x3_S_d0_1 h_S_) main_v6 main_c_1
  let main_v8 : IVec S_ 1 := andi main_v3 main_v7
  let main_v9 : FVec F S128x131 .f32 := Host.absf main_arg4
  let main_cst_2 : FVec F S_ .f32 := constant S_ .f32 0x7F800000#32
  let main_v10 : FVec F S128x131 .f32 := broadcastInDim S128x131 ![] bcast_S_S128x131 main_cst_2
  let main_v11 : IVec S128x131 1 := cmpf .olt main_v9 main_v10
  let main_c_3 : IVec S_ 1 := constantI S_ 1 1#1
  let main_v12 : IVec S_ 1 := (fun x v => Host.reduce IntOp.andi x v reducesTo_S128x131_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S100000x128 : Shape := ⟨2, ![100000, 128]⟩
abbrev S1600000x3 : Shape := ⟨2, ![1600000, 3]⟩
abbrev S1600000 : Shape := ⟨1, ![1600000]⟩
abbrev S128x131 : Shape := ⟨2, ![128, 131]⟩
abbrev S128 : Shape := ⟨1, ![128]⟩
abbrev S128x256 : Shape := ⟨2, ![128, 256]⟩
abbrev S_ : Shape := ⟨0, ![]⟩
abbrev S1600000x1 : Shape := ⟨2, ![1600000, 1]⟩
abbrev S1600000x128 : Shape := ⟨2, ![1600000, 128]⟩
abbrev S1600000x131 : Shape := ⟨2, ![1600000, 131]⟩
abbrev S1x128 : Shape := ⟨2, ![1, 128]⟩
abbrev S8000x131 : Shape := ⟨2, ![8000, 131]⟩
abbrev S8000x128 : Shape := ⟨2, ![8000, 128]⟩
abbrev S131x128 : Shape := ⟨2, ![131, 128]⟩
abbrev S100000x256 : Shape := ⟨2, ![100000, 256]⟩
abbrev S5000x256 : Shape := ⟨2, ![5000, 256]⟩
abbrev S5000x128 : Shape := ⟨2, ![5000, 128]⟩
abbrev S256x128 : Shape := ⟨2, ![256, 128]⟩

abbrev nBuf : Space → Nat
  | .hbm => 25
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S1600000x3, .f32⟩
  | .hbm, ⟨2, _⟩ => ⟨S1600000, .i32⟩
  | .hbm, ⟨3, _⟩ => ⟨S1600000, .i32⟩
  | .hbm, ⟨4, _⟩ => ⟨S128x131, .f32⟩
  | .hbm, ⟨5, _⟩ => ⟨S128, .f32⟩
  | .hbm, ⟨6, _⟩ => ⟨S128x256, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x131, .f32⟩
  | .hbm, ⟨17, _⟩ => ⟨S1x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x256, .f32⟩
  | .hbm, ⟨24, _⟩ => ⟨S100000x128, .f32⟩
  | .local _ .vmem, ⟨0, _⟩ => ⟨S8000x131, .f32⟩
  | .local _ .vmem, ⟨1, _⟩ => ⟨S8000x131, .f32⟩
  | .local _ .vmem, ⟨2, _⟩ => ⟨S128x131, .f32⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | .local _ .vmem, ⟨6, _⟩ => ⟨S5000x256, .f32⟩
  | .local _ .vmem, ⟨7, _⟩ => ⟨S5000x256, .f32⟩
  | .local _ .vmem, ⟨8, _⟩ => ⟨S128x256, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x131 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x131 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x128_S1600000x3_S1600000x131_d1 : Shape.Concatenates [S1600000x128, S1600000x3] S1600000x131 1
  shapeCasts_S128_S1x128 : S128.ShapeCasts S1x128
  inb_S8000x131_S8000x131_0_0 : ∀ a, (![0, 0] : Fin 2 → Nat) a + S8000x131.size a ≤ S8000x131.size a
  h_S8000x131 : 0 < S8000x131.numel
  shapeCasts_S8000x131_S8000x131 : S8000x131.ShapeCasts S8000x131
  bitsLt_bf16_f32 : FTy.bits .bf16 < FTy.bits .f32
  inb_S128x131_S128x131_0_0 : ∀ a, (![0, 0] : Fin 2 → Nat) a + S128x131.size a ≤ S128x131.size a
  h_S128x131 : 0 < S128x131.numel
  transposes_S128x131_p1_0_S131x128 : S128x131.Transposes [1, 0] S131x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S100000x128 : S_.BroadcastsInDim S100000x128 (![] : Fin 0 → Fin S100000x128.rank)
  concatenates_S100000x128_S100000x128_S100000x256_d1 : Shape.Concatenates [S100000x128, S100000x128] S100000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S5000x128_S5000x128_0_0 : ∀ a, (![0, 0] : Fin 2 → Nat) a + S5000x128.size a ≤ S5000x128.size a
  h_S5000x128 : 0 < S5000x128.numel
  gather_S100000x128_S1600000x1_S1600000x128_1_0_n_n_0_1_1128_wf : GatherDims.WF S100000x128 S1600000x1 S1600000x128 [1] [0] [] [0] [] 1 ![1, 128]
  dot_S8000x131_S131x128_S8000x128_1_0_0_1_n_n_wf : DotDims.WF S8000x131 S131x128 S8000x128 [1] [0] [0] [1] [] []
  scatter_S100000x128_S1600000x1_S1600000x128_1_0_0_1_wf : ScatterDims.WF S100000x128 S1600000x1 S1600000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x131.size a ≤ S1600000x131.size a
  hwx0_0 : ∀ i : grid0.Coords, EltTy.bits .f32 = 32 ∨ (Rect.block (s := S1600000x131) S8000x131.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x131.size a ≤ S128x131.size a
  hwx0_1 : ∀ i : grid0.Coords, EltTy.bits .f32 = 32 ∨ (Rect.block (s := S128x131) S128x131.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S1600000x128.size a
  hwx0_3 : ∀ i : grid0.Coords, EltTy.bits .f32 = 32 ∨ (Rect.block (s := S1600000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S8000x131_S131x128_S8000x128_1_0_0_1_n_n : DotDims S8000x131 S131x128 S8000x128 where
  lhsContracting := [1]
  rhsContracting := [0]
  lhsNonContracting := [0]
  rhsNonContracting := [1]
  lhsBatch := []
  rhsBatch := []
  wf := dot_S8000x131_S131x128_S8000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v7) S8000x131.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x131.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000x3 : Shape := ⟨2, ![1600000, 3]⟩
abbrev S1600000 : Shape := ⟨1, ![1600000]⟩
abbrev S128x131 : Shape := ⟨2, ![128, 131]⟩
abbrev S128 : Shape := ⟨1, ![128]⟩
abbrev S128x256 : Shape := ⟨2, ![128, 256]⟩
abbrev S_ : Shape := ⟨0, ![]⟩
abbrev S1600000x1 : Shape := ⟨2, ![1600000, 1]⟩
abbrev S1600000x128 : Shape := ⟨2, ![1600000, 128]⟩
abbrev S1600000x131 : Shape := ⟨2, ![1600000, 131]⟩
abbrev S131x128 : Shape := ⟨2, ![131, 128]⟩
abbrev S1x128 : Shape := ⟨2, ![1, 128]⟩
abbrev S100000x256 : Shape := ⟨2, ![100000, 256]⟩
abbrev S256x128 : Shape := ⟨2, ![256, 128]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x3, .f32⟩
  | .hbm, ⟨2, _⟩ => ⟨S1600000, .i32⟩
  | .hbm, ⟨3, _⟩ => ⟨S1600000, .i32⟩
  | .hbm, ⟨4, _⟩ => ⟨S128x131, .f32⟩
  | .hbm, ⟨5, _⟩ => ⟨S128, .f32⟩
  | .hbm, ⟨6, _⟩ => ⟨S128x256, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x131, .f32⟩
  | .hbm, ⟨17, _⟩ => ⟨S131x128, .f32⟩
  | .hbm, ⟨18, _⟩ => ⟨S1600000x128, .f32⟩
  | .hbm, ⟨19, _⟩ => ⟨S1x128, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S100000x256, .f32⟩
  | .hbm, ⟨30, _⟩ => ⟨S256x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_cst : Ref sig .tc := ⟨.hbm, 32, rfl⟩
abbrev main_call1_v0 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x128_S1600000x3_S1600000x131_d1 : Shape.Concatenates [S1600000x128, S1600000x3] S1600000x131 1
  transposes_S128x131_S131x128_1_0 : S128x131.Transposes [1, 0] S131x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  concatenates_S100000x128_S100000x128_S100000x256_d1 : Shape.Concatenates [S100000x128, S100000x128] S100000x256 1
  transposes_S128x256_S256x128_1_0 : S128x256.Transposes [1, 0] S256x128
  gather_S100000x128_S1600000x1_S1600000x128_1_0_n_n_0_1_1128_wf : GatherDims.WF S100000x128 S1600000x1 S1600000x128 [1] [0] [] [0] [] 1 ![1, 128]
  dot_S1600000x131_S131x128_S1600000x128_1_0_0_1_n_n_wf : DotDims.WF S1600000x131 S131x128 S1600000x128 [1] [0] [0] [1] [] []
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x131_S131x128_S1600000x128_1_0_0_1_n_n : DotDims S1600000x131 S131x128 S1600000x128 where
  lhsContracting := [1]
  rhsContracting := [0]
  lhsNonContracting := [0]
  rhsNonContracting := [1]
  lhsBatch := []
  rhsBatch := []
  wf := dot_S1600000x131_S131x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KernelRun.lean ====
/-
  The idealized kernel's run, with the result named.

  @main is four segments: a stretch of host operations, the per-edge pipeline, a second stretch of host operations, the
  per-node pipeline.  The contents of every buffer at each of the five boundaries are a fold from the launch memory: a
  host stretch applies its operations, a pipeline replaces its arrays by what its write-backs leave and keeps every
  other buffer.  Every weakly fair execution terminates, and in the final state every buffer that is not a staging
  buffer holds the last boundary's contents; in particular the result buffer does, and the seven arguments hold what
  they held at launch.
-/
import proofs.«106631_j49014166781968_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, and every final state has each buffer that is
    not a staging buffer at the contents of the last boundary of the fold. -/
theorem boundary_run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core takes a ghost resource
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- on each core the launch memory's buffers are held at the first boundary's contents; the generator register and
      -- the empty debt ride along
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      -- the buffers held at the last boundary's contents, read against the final state
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run with the result buffer named: it ends at the last boundary's contents, and each argument at its launch
    contents. -/
theorem result_run : θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v14 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)
    (boundary_run m ρ)

end Cert.KernelIdeal.Run

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibRowStages.lean ====
/-
  Row-wise stages on matrices of extended reals: the matrix product, a bias row added to every row, the floor at zero.

  On the extended reals an [n, k] matrix times a [k, d] matrix has at (p, o) the sum over j of a(p, j) * w(j, o); adding a
  one-row matrix to every row adds b(0, j) at (p, j); flooring takes the maximum with what the zero word of the 32-bit
  float format denotes.  Each of the three works one row at a time: row p of the result depends on row p of the matrix
  operand only.  So if row q of a matrix ab is row p of a matrix a, the same holds of their images under any of the three
  (`RowEq`, `mm_row`, `addRow_row`, `relu_row`), hence under any composition: a stage computed on a block of rows is the
  same rows of the stage of the whole matrix.  Nothing is distributed or cancelled, so this holds at the infinities too.

  The operations a vector unit and a host program apply are these functions, entry by entry: a matrix unit's product into
  the zero accumulator and the host's contraction with the same dimension numbers are `mm` whatever the operands' float
  formats; a bias row spread over the rows and added is `addRow` (for the unit's spread of a one-row matrix, and for the
  host's vector placed as a row and then spread); the maximum against a splat of the zero word is `relu` (splat from a
  scalar constant by the unit, from a scalar array by the host); a change to a narrower float format changes nothing.
-/
import Idealize.ShloMosaic.PureOps.Ideal
import Idealize.ShloMosaic.PureOps.Ideal.Laws
import Idealize.ShloMosaic.Lib.ValueIdx
import Idealize.ShloMosaic.Lib.Pipeline.Value
import proofs.«106631_j49014166781968_1_alg».proof.Proof.LibPlainDot
import proofs.«106631_j49014166781968_1_alg».proof.Proof.LibBiasRow
import proofs.«106631_j49014166781968_1_alg».proof.Proof.LibRowBroadcast

noncomputable section

open scoped BigOperators

namespace Cert.LibRowStages

open Idealize.ShloMosaic Idealize.ShloMosaic.ValueIdx

/-- An [a, b] matrix of extended reals. -/
abbrev Mat (a b : ℕ) : Type := (⟨2, ![a, b]⟩ : Shape).Idx → EReal

/-- The floor of the rectifier: what the zero word of the 32-bit float format denotes (never evaluated: the same word
    stands on both sides of every equation). -/
def floor0 : EReal := Ideal.ofBits .f32 0x00000000#32

/-- The matrix product: entry (p, o) is the sum over j of a(p, j) * w(j, o). -/
def mm {n k d : ℕ} (a : Mat n k) (w : Mat k d) : Mat n d :=
  fun i => ∑ j : Fin k, a (ix2 (i 0) j) * w (ix2 j (i 1))

/-- A one-row matrix added to every row: entry (p, j) gains b(0, j). -/
def addRow {n k : ℕ} (a : Mat n k) (b : Mat 1 k) : Mat n k :=
  fun i => a i + b (ix2 (0 : Fin 1) (i 1))

/-- Every entry floored at zero. -/
def relu {n k : ℕ} (a : Mat n k) : Mat n k := fun i => max (a i) floor0

/-! ## One row at a time -/

/-- Row q of ab is row p of a. -/
def RowEq {m n k : ℕ} (ab : Mat m k) (q : Fin m) (a : Mat n k) (p : Fin n) : Prop :=
  ∀ j : Fin k, ab (ix2 q j) = a (ix2 p j)

theorem mm_row {m n k d : ℕ} {ab : Mat m k} {q : Fin m} {a : Mat n k} {p : Fin n} (h : RowEq ab q a p) (w : Mat k d) :
    RowEq (mm ab w) q (mm a w) p := fun o => by
  show ∑ j : Fin k, ab (ix2 q j) * w (ix2 j o) = ∑ j : Fin k, a (ix2 p j) * w (ix2 j o)
  exact Finset.sum_congr rfl fun j _ => by rw [h j]

theorem addRow_row {m n k : ℕ} {ab : Mat m k} {q : Fin m} {a : Mat n k} {p : Fin n} (h : RowEq ab q a p) (b : Mat 1 k) :
    RowEq (addRow ab b) q (addRow a b) p := fun j => by
  show ab (ix2 q j) + b (ix2 (0 : Fin 1) j) = a (ix2 p j) + b (ix2 (0 : Fin 1) j)
  rw [h j]

theorem relu_row {m n k : ℕ} {ab : Mat m k} {q : Fin m} {a : Mat n k} {p : Fin n} (h : RowEq ab q a p) :
    RowEq (relu ab) q (relu a) p := fun j => by
  show max (ab (ix2 q j)) floor0 = max (a (ix2 p j)) floor0
  rw [h j]

/-! ## The machine's operations are these functions -/

/-- A matrix unit's product into the zero accumulator is the matrix product, whatever the operands' formats. -/
theorem matmul_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    matmul D prec l r (constant ⟨2, ![n, d]⟩ .f32 0x00000000#32) = mm l r := by
  funext i
  obtain ⟨p, o, rfl⟩ : ∃ (p : Fin n) (o : Fin d), i = ix2 p o := ⟨i 0, i 1, eq_ix2 i⟩
  exact Cert.LibPlainDot.matmul_zero_apply D hlc hrc hln hrn hlb hrb prec l r p o

/-- The host's contraction with the same dimension numbers is the matrix product. -/
theorem dotGeneral_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    Host.dotGeneral D prec l r = mm l r := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single l r p o

/-- Adding a one-row matrix spread over the rows is `addRow`. -/
theorem addf_spread_eq_addRow {n k : ℕ} (h : (⟨2, ![1, k]⟩ : Shape).Broadcasts ⟨2, ![n, k]⟩)
    (a : FVec Ideal ⟨2, ![n, k]⟩ .f32) (b : FVec Ideal ⟨2, ![1, k]⟩ .f32) :
    addf a (broadcastTo ⟨2, ![n, k]⟩ b h) = addRow a b := by
  funext i
  obtain ⟨p, j, rfl⟩ : ∃ (p : Fin n) (j : Fin k), i = ix2 p j := ⟨i 0, i 1, eq_ix2 i⟩
  show a (ix2 p j) + broadcastTo ⟨2, ![n, k]⟩ b h (ix2 p j) = a (ix2 p j) + b (ix2 (0 : Fin 1) j)
  rw [Cert.LibBiasRow.row_spread_apply h b p j]

/-- The maximum against a splat of the zero word is `relu`. -/
theorem maximumf_zero_eq_relu {n k : ℕ} (a : FVec Ideal ⟨2, ![n, k]⟩ .f32) :
    maximumf a (broadcast ⟨2, ![n, k]⟩ (Scalar.ofBits (F := Ideal) .f32 0x00000000#32)) = relu a := rfl

/-- A change to a narrower float format changes no extended real. -/
theorem truncf_eq {s : Shape} {φ ψ : FTy} (a : FVec Ideal s φ) (h : ψ.bits < φ.bits) :
    (truncf ψ a h : FVec Ideal s ψ) = a := rfl

/-! ## The host program's spellings -/

/-- Adding a vector placed as a row and spread over the rows is `addRow` of the vector reshaped to a row. -/
theorem addf_hostBias_eq_addRow {n k : ℕ} (h1 : (⟨1, ![k]⟩ : Shape).BroadcastsInDim ⟨2, ![1, k]⟩ ![1])
    (h2 : (⟨2, ![1, k]⟩ : Shape).BroadcastsInDim ⟨2, ![n, k]⟩ ![0, 1]) (hc : (⟨1, ![k]⟩ : Shape).ShapeCasts ⟨2, ![1, k]⟩)
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v))
      = addRow a (shapeCast ⟨2, ![1, k]⟩ v hc) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + shapeCast ⟨2, ![1, k]⟩ v hc (ix2 (0 : Fin 1) j)
  rw [Cert.LibRowBroadcast.row_mat_apply h2 _ p j, Cert.LibRowBroadcast.vec_row_apply h1 v 0 j,
    Cert.LibBiasRow.vec_as_row_apply hc v 0 j]

/-- The maximum against the zero word spread from a scalar is `relu`. -/
theorem maximumf_hostZero_eq_relu {n k : ℕ} (h : (⟨0, ![]⟩ : Shape).BroadcastsInDim ⟨2, ![n, k]⟩ ![])
    (a : FVec Ideal ⟨2, ![n, k]⟩ .f32) :
    maximumf a (broadcastInDim ⟨2, ![n, k]⟩ ![] h (constant (F := Ideal) ⟨0, ![]⟩ .f32 0x00000000#32)) = relu a := by
  funext i
  show max (a i) (broadcastInDim ⟨2, ![n, k]⟩ ![] h (constant (F := Ideal) ⟨0, ![]⟩ .f32 0x00000000#32) i) = max (a i) floor0
  rw [broadcastInDim_apply ![] h _ i ix0 (fun a => a.elim0)]
  rfl

end Cert.LibRowStages

end
-- ==== Proof.Stages.lean ====
/-
  The two dense stages of one message-passing layer, as functions of whole matrices of extended reals.

  The edge stage takes the [n, k] matrix M of per-edge messages, a [k, d] weight matrix Wt and a one-row bias b, and
  gives the [n, d] matrix max(M · Wt + b, 0).  The node stage takes the [n, k] matrix H of per-node features and a
  [k, d] weight matrix Wt, and gives max(H · Wt, 0).  Each is a composition of the row-wise stages (matrix product,
  bias row, floor at zero), so row p of the result depends on row p of the first operand only: a block of rows of
  the stage of a whole matrix is the stage of that block of rows.  Nothing is distributed or cancelled, so this
  holds at the infinities too.
-/
import proofs.«106631_j49014166781968_1_alg».proof.Proof.LibRowStages

noncomputable section

namespace Cert.Stages

open Idealize.ShloMosaic Idealize.ShloMosaic.ValueIdx Cert.LibRowStages

/-- The edge stage: entry (p, o) is max(sum over j of M(p, j) * Wt(j, o) + b(0, o), 0). -/
def edge {n k d : ℕ} (M : Mat n k) (Wt : Mat k d) (b : Mat 1 d) : Mat n d := relu (addRow (mm M Wt) b)

/-- The node stage: entry (p, o) is max(sum over j of H(p, j) * Wt(j, o), 0). -/
def node {n k d : ℕ} (H : Mat n k) (Wt : Mat k d) : Mat n d := relu (mm H Wt)

/-- If row q of Mb is row p of M, row q of the edge stage of Mb is row p of the edge stage of M. -/
theorem edge_row {m n k d : ℕ} {Mb : Mat m k} {q : Fin m} {M : Mat n k} {p : Fin n} (h : RowEq Mb q M p)
    (Wt : Mat k d) (b : Mat 1 d) : RowEq (edge Mb Wt b) q (edge M Wt b) p :=
  relu_row (addRow_row (mm_row h Wt) b)

/-- If row q of Hb is row p of H, row q of the node stage of Hb is row p of the node stage of H. -/
theorem node_row {m n k d : ℕ} {Hb : Mat m k} {q : Fin m} {H : Mat n k} {p : Fin n} (h : RowEq Hb q H p)
    (Wt : Mat k d) : RowEq (node Hb Wt) q (node H Wt) p :=
  relu_row (mm_row h Wt)

end Cert.Stages

end
-- ==== Proof.EdgeRegion.lean ====
/-
  Region 0 (the per-edge stage) read as one function of whole arrays.

  The first pipeline walks the [1600000, 131] message matrix M in 200 blocks of 8000 rows; at every point it also
  holds the whole [128, 131] weight matrix W and the whole one-row bias b, and writes back the 8000 rows
  max(M_block · Wᵀ + b, 0).  Because the edge stage works one row at a time, rows 8000·t … 8000·t + 7999 of the stage of
  the whole matrix are the stage of block t; the 200 blocks tile the rows, so after the region the output array is
  the edge stage of the whole message matrix.
-/
import proofs.«106631_j49014166781968_1_alg».proof.Proof.Gen.KernelIdeal.Frame
import proofs.«106631_j49014166781968_1_alg».proof.Proof.Stages
import Idealize.ShloMosaic.Lib.Pipeline.Value
import Idealize.ShloMosaic.Lib.ValueIdx

set_option maxRecDepth 16384

noncomputable section

namespace Cert.KernelIdeal.EdgeRegion

open Cert.KernelIdeal Cert.KernelIdeal.Gen
open Idealize.ShloMosaic Idealize.ShloMosaic.TcCoe Idealize.ShloMosaic.ValueIdx Idealize.SL.Sem
open Cert.LibRowStages Cert.Stages
open Idealize.ShloMosaic.Pipeline (Dat)

/-- The weight matrix as the matrix unit takes it: the [128, 131] matrix transposed to [131, 128]. -/
abbrev W1t (W : Vec Ideal S128x131 .f32) : Mat 131 128 :=
  transpose S131x128 [1, 0] W transposes_S128x131_p1_0_S131x128

theorem zero_offsets : (![0, 0] : Fin 2 → Nat) = fun _ => 0 := funext fun a => by fin_cases a <;> rfl

/-- What the body stores is the edge stage of what it loads: the narrowing of the two matrix operands changes no
    extended real, the product into the zero accumulator is the matrix product, the spread bias row is added to every
    row, and the maximum against the zero splat is the floor at zero. -/
theorem payload_eq (x0 : Vec Ideal S8000x131 .f32) (x1 : Vec Ideal S128x131 .f32) (x2 : Vec Ideal S1x128 .f32) :
    k0_pay1 (F := Ideal) x0 x1 x2 = edge x0 (W1t x1) x2 := by
  show maximumf (addf (matmul dot_S8000x131_S131x128_S8000x128_1_0_0_1_n_n none
        (shapeCast S8000x131 x0 shapeCasts_S8000x131_S8000x131) (W1t x1) (constant S8000x128 .f32 0x00000000#32))
      (broadcastTo S8000x128 (shapeCast S1x128 x2 shapeCasts_S1x128_S1x128) broadcasts_S1x128_S8000x128))
    (broadcast S8000x128 (Scalar.ofBits (F := Ideal) .f32 0x00000000#32)) = relu (addRow (mm x0 (W1t x1)) x2)
  rw [shapeCast_self, shapeCast_self, matmul_eq_mm _ rfl rfl rfl rfl rfl rfl, addf_spread_eq_addRow,
    maximumf_zero_eq_relu]

/-- The printed index maps over the 200 grid points: the message window and the output window are at block row t, the
    weight and bias windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One point's stored block at (p, o), for loaded blocks whose row p of messages is row P of the whole message matrix
    and whose weight and bias blocks are the whole arrays: entry (P, o) of the edge stage of the whole matrix. -/
theorem point_eq (Mb : Vec Ideal S8000x131 .f32) (Wb : Vec Ideal S128x131 .f32) (bb : Vec Ideal S1x128 .f32)
    (M : Vec Ideal S1600000x131 .f32) (W : Vec Ideal S128x131 .f32) (b : Vec Ideal S1x128 .f32)
    (p : Fin 8000) (P : Fin 1600000) (o : Fin 128)
    (hM : ∀ k : Fin 131, Mb (ix2 p k) = M (ix2 P k)) (hW : Wb = W) (hb : bb = b) :
    out0_3 Mb Wb bb (ix2 p o) = edge M (W1t W) b (ix2 P o) := by
  subst hW hb
  unfold out0_3
  rw [View.canon_unit_zero zero_offsets]
  simp only [View.ld_unit_zero (S := S8000x131) zero_offsets, View.ld_unit_zero (S := S128x131) zero_offsets,
    View.ld_unit_zero (S := S1x128) zero_offsets]
  rw [payload_eq]
  exact edge_row hM _ _ o

section Entry
variable (V : (c : Dev nD) → (b : Ref sig .tc) → Buf (Elt Ideal) ((c : Thread nD τ).loc b))

/-- The weight window's block at every point is the whole weight matrix. -/
theorem weight_block (c : Dev nD) (t : Fin cfg0.N) : iblk0 V c 1 t = V c main_arg4 := by
  obtain ⟨-, -, e0, e1, -⟩ := idx_facts t
  funext y
  show V c main_arg4 (((cfg0.win 1).blk t).view.emb y) = V c main_arg4 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 131 + 1 * (y 1).val = (y 1).val; omega

/-- The bias window's block at every point is the whole bias row. -/
theorem bias_block (c : Dev nD) (t : Fin cfg0.N) : iblk0 V c 2 t = V c main_v8 := by
  obtain ⟨-, -, -, -, e0, e1, -⟩ := idx_facts t
  funext y
  show V c main_v8 (((cfg0.win 2).blk t).view.emb y) = V c main_v8 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point t writes back is block t of the edge stage of the arrays the region finds. -/
theorem flushed_eq (c : Dev nD) (t : Fin cfg0.N) :
    (dat0 V c).flushed 3 t
      = ((cfg0.win 3).blk t).view.read (Elt Ideal) (edge (V c main_v7) (W1t (V c main_arg4)) (V c main_v8)) := by
  show (cfg0.win 3).cut (grid0.coords t) ((dat0 V c).after 3 t) = _
  rw [after0_3]
  obtain ⟨e00, e01, -, -, -, -, e30, e31⟩ := idx_facts t
  have ht : t.val < 200 := Nat.lt_of_lt_of_eq t.isLt N_0
  funext j
  obtain ⟨p, o, rfl⟩ : ∃ (p : Fin 8000) (o : Fin 128), j = ix2 p o := ⟨j 0, j 1, eq_ix2 j⟩
  have hp : p.val < 8000 := p.isLt
  have hemb : ((cfg0.win 3).blk t).view.emb (ix2 p o) = ix2 (⟨t.val * 8000 + p.val, by omega⟩ : Fin 1600000) o := by
    funext a; apply Fin.ext
    match a with
    | ⟨0, _⟩ => show win0_3.index t (0 : Fin 2) * 8000 + 1 * p.val = t.val * 8000 + p.val; omega
    | ⟨1, _⟩ => show win0_3.index t (1 : Fin 2) * 128 + 1 * o.val = o.val; omega
  show out0_3 (iblk0 V c 0 t) (iblk0 V c 1 t) (iblk0 V c 2 t) (ix2 p o)
    = edge (V c main_v7) (W1t (V c main_arg4)) (V c main_v8) (((cfg0.win 3).blk t).view.emb (ix2 p o))
  rw [hemb]
  refine point_eq _ _ _ _ _ _ p _ o (fun k => ?_) (weight_block V c t) (bias_block V c t)
  show V c main_v7 (((cfg0.win 0).blk t).view.emb (ix2 p k)) = V c main_v7 (ix2 _ k)
  refine congrArg _ (funext fun a => Fin.ext ?_)
  match a with
  | ⟨0, _⟩ => show win0_0.index t (0 : Fin 2) * 8000 + 1 * p.val = t.val * 8000 + p.val; omega
  | ⟨1, _⟩ => show win0_0.index t (1 : Fin 2) * 131 + 1 * k.val = k.val; omega

/-- An index of the output array is in point t's block iff each coordinate is in the block's range on its axis. -/
theorem mem_block (t : Fin cfg0.N) (i : S1600000x128.Idx) :
    i ∈ ((cfg0.win 3).blk t).view.set ↔ ∀ a : Fin 2, win0_3.index t a * S8000x128.size a ≤ (i a).val
      ∧ (i a).val < win0_3.index t a * S8000x128.size a + S8000x128.size a := by
  show i ∈ ((View.whole main_v9).slice (win0_3.rect t)).set ↔ _
  rw [View.set_slice_whole, Rect.mem_set_unit]
  exact Iff.rfl

/-- Every index of the output array is in some point's block: row r is in block r / 8000. -/
theorem covered (i : S1600000x128.Idx) :
    ∃ t : Fin cfg0.N, (cfg0.win 3).flush t = true ∧ i ∈ ((cfg0.win 3).blk t).view.set := by
  have hi0 : (i 0).val < 1600000 := (i 0).isLt
  have hi1 : (i 1).val < 128 := (i 1).isLt
  have hN : cfg0.N = 200 := N_0
  have hq : (i 0).val / 8000 < cfg0.N := by rw [hN]; omega
  obtain ⟨-, -, -, -, -, -, e30, e31⟩ := idx_facts ⟨(i 0).val / 8000, hq⟩
  refine ⟨⟨(i 0).val / 8000, hq⟩, flush0_3 _, ?_⟩
  rw [mem_block]
  intro a
  match a with
  | ⟨0, _⟩ =>
    show win0_3.index ⟨(i 0).val / 8000, hq⟩ (0 : Fin 2) * 8000 ≤ (i 0).val
      ∧ (i 0).val < win0_3.index ⟨(i 0).val / 8000, hq⟩ (0 : Fin 2) * 8000 + 8000
    rw [e30]; show (i 0).val / 8000 * 8000 ≤ (i 0).val ∧ (i 0).val < (i 0).val / 8000 * 8000 + 8000; omega
  | ⟨1, _⟩ =>
    show win0_3.index ⟨(i 0).val / 8000, hq⟩ (1 : Fin 2) * 128 ≤ (i 1).val
      ∧ (i 1).val < win0_3.index ⟨(i 0).val / 8000, hq⟩ (1 : Fin 2) * 128 + 128
    rw [e31]; omega

/-- After the region the output array is the edge stage of the message matrix, the weight matrix and the bias row as the
    region finds them. -/
theorem array_eq (c : Dev nD) :
    (dat0 V c).arrAt 3 cfg0.N = edge (V c main_v7) (W1t (V c main_arg4)) (V c main_v8) :=
  (dat0 V c).arrAt_eq_of_cover 3 _ (fun t _ => flushed_eq V c t) (covered)

end Entry

end Cert.KernelIdeal.EdgeRegion

end
-- ==== Proof.NodeRegion.lean ====
/-
  Region 1 (the per-node stage) read as one function of whole arrays.

  The second pipeline walks the [100000, 256] matrix H of joined node features in 20 blocks of 5000 rows; at every point
  it also holds the whole [128, 256] weight matrix W, and writes back the 5000 rows max(H_block · Wᵀ, 0).  The node
  stage works one row at a time, so rows 5000·t … 5000·t + 4999 of the stage of the whole matrix are the stage of block
  t; the 20 blocks tile the rows, so after the region the output array is the node stage of the whole matrix.
-/
import proofs.«106631_j49014166781968_1_alg».proof.Proof.Gen.KernelIdeal.Frame
import proofs.«106631_j49014166781968_1_alg».proof.Proof.Stages
import Idealize.ShloMosaic.Lib.Pipeline.Value
import Idealize.ShloMosaic.Lib.ValueIdx

set_option maxRecDepth 16384

noncomputable section

namespace Cert.KernelIdeal.NodeRegion

open Cert.KernelIdeal Cert.KernelIdeal.Gen
open Idealize.ShloMosaic Idealize.ShloMosaic.TcCoe Idealize.ShloMosaic.ValueIdx Idealize.SL.Sem
open Cert.LibRowStages Cert.Stages
open Idealize.ShloMosaic.Pipeline (Dat)

/-- The weight matrix as the matrix unit takes it: the [128, 256] matrix transposed to [256, 128]. -/
abbrev W2t (W : Vec Ideal S128x256 .f32) : Mat 256 128 :=
  transpose S256x128 [1, 0] W transposes_S128x256_p1_0_S256x128

theorem zero_offsets : (![0, 0] : Fin 2 → Nat) = fun _ => 0 := funext fun a => by fin_cases a <;> rfl

/-- What the body stores is the node stage of what it loads: the narrowing of the two matrix operands changes no
    extended real, the product into the zero accumulator is the matrix product, and the maximum against the zero splat
    is the floor at zero. -/
theorem payload_eq (x0 : Vec Ideal S5000x256 .f32) (x1 : Vec Ideal S128x256 .f32) :
    k1_pay1 (F := Ideal) x0 x1 = node x0 (W2t x1) := by
  show maximumf (matmul dot_S5000x256_S256x128_S5000x128_1_0_0_1_n_n none
        (shapeCast S5000x256 x0 shapeCasts_S5000x256_S5000x256) (W2t x1) (constant S5000x128 .f32 0x00000000#32))
    (broadcast S5000x128 (Scalar.ofBits (F := Ideal) .f32 0x00000000#32)) = relu (mm x0 (W2t x1))
  rw [shapeCast_self, matmul_eq_mm _ rfl rfl rfl rfl rfl rfl, maximumf_zero_eq_relu]

/-- The printed index maps over the 20 grid points: the feature window and the output window are at block row t, the
    weight window stays at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One point's stored block at (p, o), for loaded blocks whose row p of features is row P of the whole feature matrix
    and whose weight block is the whole array: entry (P, o) of the node stage of the whole matrix. -/
theorem point_eq (Hb : Vec Ideal S5000x256 .f32) (Wb : Vec Ideal S128x256 .f32)
    (H : Vec Ideal S100000x256 .f32) (W : Vec Ideal S128x256 .f32)
    (p : Fin 5000) (P : Fin 100000) (o : Fin 128)
    (hH : ∀ k : Fin 256, Hb (ix2 p k) = H (ix2 P k)) (hW : Wb = W) :
    out1_2 Hb Wb (ix2 p o) = node H (W2t W) (ix2 P o) := by
  subst hW
  unfold out1_2
  rw [View.canon_unit_zero zero_offsets]
  simp only [View.ld_unit_zero (S := S5000x256) zero_offsets, View.ld_unit_zero (S := S128x256) zero_offsets]
  rw [payload_eq]
  exact node_row hH _ o

section Entry
variable (V : (c : Dev nD) → (b : Ref sig .tc) → Buf (Elt Ideal) ((c : Thread nD τ).loc b))

/-- The weight window's block at every point is the whole weight matrix. -/
theorem weight_block (c : Dev nD) (t : Fin cfg1.N) : iblk1 V c 1 t = V c main_arg6 := by
  obtain ⟨-, -, e0, e1, -⟩ := idx_facts t
  funext y
  show V c main_arg6 (((cfg1.win 1).blk t).view.emb y) = V c main_arg6 y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 256 + 1 * (y 1).val = (y 1).val; omega

/-- What point t writes back is block t of the node stage of the arrays the region finds. -/
theorem flushed_eq (c : Dev nD) (t : Fin cfg1.N) :
    (dat1 V c).flushed 2 t
      = ((cfg1.win 2).blk t).view.read (Elt Ideal) (node (V c main_v13) (W2t (V c main_arg6))) := by
  show (cfg1.win 2).cut (grid1.coords t) ((dat1 V c).after 2 t) = _
  rw [after1_2]
  obtain ⟨e00, e01, -, -, e20, e21⟩ := idx_facts t
  have ht : t.val < 20 := Nat.lt_of_lt_of_eq t.isLt N_1
  funext j
  obtain ⟨p, o, rfl⟩ : ∃ (p : Fin 5000) (o : Fin 128), j = ix2 p o := ⟨j 0, j 1, eq_ix2 j⟩
  have hp : p.val < 5000 := p.isLt
  have hemb : ((cfg1.win 2).blk t).view.emb (ix2 p o) = ix2 (⟨t.val * 5000 + p.val, by omega⟩ : Fin 100000) o := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * o.val = o.val; omega
  show out1_2 (iblk1 V c 0 t) (iblk1 V c 1 t) (ix2 p o)
    = node (V c main_v13) (W2t (V c main_arg6)) (((cfg1.win 2).blk t).view.emb (ix2 p o))
  rw [hemb]
  refine point_eq _ _ _ _ p _ o (fun k => ?_) (weight_block V c t)
  show V c main_v13 (((cfg1.win 0).blk t).view.emb (ix2 p k)) = V c main_v13 (ix2 _ k)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 256 + 1 * k.val = k.val; omega

/-- An index of the output array is in point t's block iff each coordinate is in the block's range on its axis. -/
theorem mem_block (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v14).slice (win1_2.rect t)).set ↔ _
  rw [View.set_slice_whole, Rect.mem_set_unit]
  exact Iff.rfl

/-- Every index of the output array is in some point's block: row r is in block r / 5000. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have hq : (i 0).val / 5000 < cfg1.N := by rw [hN]; omega
  obtain ⟨-, -, -, -, e20, e21⟩ := idx_facts ⟨(i 0).val / 5000, hq⟩
  refine ⟨⟨(i 0).val / 5000, hq⟩, flush1_2 _, ?_⟩
  rw [mem_block]
  intro a
  match a with
  | ⟨0, _⟩ =>
    show win1_2.index ⟨(i 0).val / 5000, hq⟩ (0 : Fin 2) * 5000 ≤ (i 0).val
      ∧ (i 0).val < win1_2.index ⟨(i 0).val / 5000, hq⟩ (0 : Fin 2) * 5000 + 5000
    rw [e20]; show (i 0).val / 5000 * 5000 ≤ (i 0).val ∧ (i 0).val < (i 0).val / 5000 * 5000 + 5000; omega
  | ⟨1, _⟩ =>
    show win1_2.index ⟨(i 0).val / 5000, hq⟩ (1 : Fin 2) * 128 ≤ (i 1).val
      ∧ (i 1).val < win1_2.index ⟨(i 0).val / 5000, hq⟩ (1 : Fin 2) * 128 + 128
    rw [e21]; omega

/-- After the region the output array is the node stage of the feature matrix and the weight matrix as the region
    finds them. -/
theorem array_eq (c : Dev nD) :
    (dat1 V c).arrAt 2 cfg1.N = node (V c main_v13) (W2t (V c main_arg6)) :=
  (dat1 V c).arrAt_eq_of_cover 2 _ (fun t _ => flushed_eq V c t) (covered)

end Entry

end Cert.KernelIdeal.NodeRegion

end
-- ==== Proof.Layer.lean ====
/-
  The idealized kernel's result as one function of the seven arguments.

  One layer of message passing.  The message matrix joins, for each of the 1600000 edges, the 128 features of the edge's
  source node (a row gather of h at the source indices, a negative index first shifted up by 100000) with the edge's own
  3 features.  The edge stage takes it through max(M · W1ᵀ + b1, 0).  The rows of that [1600000, 128] matrix are then
  summed into the rows of a zero [100000, 128] matrix at the destination indices (a scatter with addition), the sums are
  joined to the node features h, and the node stage takes the [100000, 256] matrix through max(H · W2ᵀ, 0).

  The kernel computes the two dense stages in two pipelines and everything else on the host.  Reading the fold of buffer
  contents from the last boundary back to the launch memory — a pipeline's output array is its stage of the arrays it
  finds, a host stretch applies its operations, an argument is never written — gives the result buffer as this
  function of the arguments.  The gather, the scatter and the two joins stay the operations the program names: nothing
  here depends on which rows they pick.
-/
import proofs.«106631_j49014166781968_1_alg».proof.Proof.Gen.KernelIdeal.Frame
import proofs.«106631_j49014166781968_1_alg».proof.Proof.EdgeRegion
import proofs.«106631_j49014166781968_1_alg».proof.Proof.NodeRegion
import Idealize.ShloMosaic.Lib.StableHlo.Run

set_option maxRecDepth 16384

noncomputable section

namespace Cert.KernelIdeal.Layer

open Cert.KernelIdeal Cert.KernelIdeal.Gen
open Idealize.ShloMosaic Idealize.ShloMosaic.TcCoe Idealize.ShloMosaic.StableHlo Idealize.SL.Sem
open Cert.LibRowStages Cert.Stages
open Cert.KernelIdeal.EdgeRegion (W1t)
open Cert.KernelIdeal.NodeRegion (W2t)

/-- The message matrix: for each edge the source node's features (a negative source index shifted up by the number of
    nodes, then a row gather) joined with the edge's own features. -/
def messages (x0 : (⟨S100000x128, .f32⟩ : BufTy).Contents (Elt Ideal)) (x1 : (⟨S1600000x3, .f32⟩ : BufTy).Contents (Elt Ideal))
    (x2 : (⟨S1600000, .i32⟩ : BufTy).Contents (Elt Ideal)) : (⟨S1600000x131, .f32⟩ : BufTy).Contents (Elt Ideal) :=
  concatenate S1600000x131 1 [⟨S1600000x128, Host.gather gather_S100000x128_S1600000x1_S1600000x128_1_0_n_n_0_1_1128 x0
      (broadcastInDim S1600000x1 ![0] bcast_S1600000_S1600000x1_0
        (select (cmpi .slt x2 (broadcastInDim S1600000 ![] bcast_S_S1600000 (constantI S_ 32 0#32)))
          (addi x2 (broadcastInDim S1600000 ![] bcast_S_S1600000 (constantI S_ 32 100000#32))) x2))⟩,
    ⟨S1600000x3, x1⟩] concatenates_S1600000x128_S1600000x3_S1600000x131_d1

/-- The node features joined with the per-edge rows summed at their destination nodes (a scatter with addition into
    the zero matrix). -/
def joined (x0 : (⟨S100000x128, .f32⟩ : BufTy).Contents (Elt Ideal)) (x3 : (⟨S1600000, .i32⟩ : BufTy).Contents (Elt Ideal))
    (e : (⟨S1600000x128, .f32⟩ : BufTy).Contents (Elt Ideal)) : (⟨S100000x256, .f32⟩ : BufTy).Contents (Elt Ideal) :=
  concatenate S100000x256 1 [⟨S100000x128, x0⟩,
    ⟨S100000x128, Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 x3) e⟩]
    concatenates_S100000x128_S100000x128_S100000x256_d1

/-- The per-edge rows: the edge stage of the message matrix, the transposed weights and the bias as one row. -/
def edgeRows (x0 : (⟨S100000x128, .f32⟩ : BufTy).Contents (Elt Ideal)) (x1 : (⟨S1600000x3, .f32⟩ : BufTy).Contents (Elt Ideal))
    (x2 : (⟨S1600000, .i32⟩ : BufTy).Contents (Elt Ideal)) (x4 : (⟨S128x131, .f32⟩ : BufTy).Contents (Elt Ideal))
    (x5 : (⟨S128, .f32⟩ : BufTy).Contents (Elt Ideal)) : (⟨S1600000x128, .f32⟩ : BufTy).Contents (Elt Ideal) :=
  edge (messages x0 x1 x2) (W1t x4) (shapeCast S1x128 x5 shapeCasts_S128_S1x128)

/-- The layer: the node stage of the joined features and the second transposed weights. -/
def layer (x0 : (⟨S100000x128, .f32⟩ : BufTy).Contents (Elt Ideal)) (x1 : (⟨S1600000x3, .f32⟩ : BufTy).Contents (Elt Ideal))
    (x2 x3 : (⟨S1600000, .i32⟩ : BufTy).Contents (Elt Ideal)) (x4 : (⟨S128x131, .f32⟩ : BufTy).Contents (Elt Ideal))
    (x5 : (⟨S128, .f32⟩ : BufTy).Contents (Elt Ideal)) (x6 : (⟨S128x256, .f32⟩ : BufTy).Contents (Elt Ideal)) : (⟨S100000x128, .f32⟩ : BufTy).Contents (Elt Ideal) :=
  node (joined x0 x3 (edgeRows x0 x1 x2 x4 x5)) (W2t x6)

variable (m : (ℓ : Loc nD τ sig) → Buf (Elt Ideal) ℓ) (ρ : Dev nD → PrngReg)

/-! ## The first host stretch -/

/-- The message window's array, as the first pipeline finds it. -/
theorem entry_messages (c : Dev nD) :
    V1 m ρ c main_v7 = messages (m ((c : Thread nD τ).loc main_arg0)) (m ((c : Thread nD τ).loc main_arg1))
      (m ((c : Thread nD τ).loc main_arg2)) := by
  show StableHlo.after hostOps0 (W0 m ρ c) (Proc.devRef .tc main_v7) = _
  after_results
  rfl

/-- The weight window's array, as the first pipeline finds it: the argument. -/
theorem entry_weights1 (c : Dev nD) : V1 m ρ c main_arg4 = m ((c : Thread nD τ).loc main_arg4) := by
  show StableHlo.after hostOps0 (W0 m ρ c) (Proc.devRef .tc main_arg4) = _
  after_results <;> rfl

/-- The bias window's array, as the first pipeline finds it: the bias vector as one row. -/
theorem entry_bias (c : Dev nD) :
    V1 m ρ c main_v8 = shapeCast S1x128 (m ((c : Thread nD τ).loc main_arg5)) shapeCasts_S128_S1x128 := by
  show StableHlo.after hostOps0 (W0 m ρ c) (Proc.devRef .tc main_v8) = _
  after_results
  rfl

/-- An argument the first pipeline does not stage holds its launch contents at the pipeline's exit. -/
theorem exit_arg0 (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results <;> rfl
theorem exit_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results <;> rfl
theorem exit_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results <;> rfl

/-! ## The first pipeline -/

/-- At the first pipeline's exit its output array holds the per-edge rows. -/
theorem exit_edgeRows (c : Dev nD) :
    W2 m ρ c (Proc.devRef .tc main_v9) = edgeRows (m ((c : Thread nD τ).loc main_arg0)) (m ((c : Thread nD τ).loc main_arg1))
      (m ((c : Thread nD τ).loc main_arg2)) (m ((c : Thread nD τ).loc main_arg4)) (m ((c : Thread nD τ).loc main_arg5)) := by
  refine (W2_arr m ρ c 3).trans ((EdgeRegion.array_eq (V1 m ρ) c).trans ?_)
  rw [entry_messages, entry_weights1, entry_bias]
  rfl

/-! ## The second host stretch -/

/-- The feature window's array, as the second pipeline finds it. -/
theorem entry_features (c : Dev nD) :
    V3 m ρ c main_v13 = joined (m ((c : Thread nD τ).loc main_arg0)) (m ((c : Thread nD τ).loc main_arg3))
      (edgeRows (m ((c : Thread nD τ).loc main_arg0)) (m ((c : Thread nD τ).loc main_arg1))
        (m ((c : Thread nD τ).loc main_arg2)) (m ((c : Thread nD τ).loc main_arg4)) (m ((c : Thread nD τ).loc main_arg5))) := by
  show StableHlo.after hostOps1 (W2 m ρ c) (Proc.devRef .tc main_v13) = _
  after_results
  rw [exit_arg0, exit_arg3, exit_edgeRows]
  rfl

/-- The weight window's array, as the second pipeline finds it: the argument. -/
theorem entry_weights2 (c : Dev nD) : V3 m ρ c main_arg6 = m ((c : Thread nD τ).loc main_arg6) := by
  show StableHlo.after hostOps1 (W2 m ρ c) (Proc.devRef .tc main_arg6) = _
  after_results
  exact exit_arg6 m ρ c

/-! ## The second pipeline -/

/-- At the last boundary the result buffer holds the layer of the seven arguments. -/
theorem result_eq (c : Dev nD) :
    W4 m ρ c (Proc.devRef .tc main_v14) = layer (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (W4_arr m ρ c 2).trans ((NodeRegion.array_eq (V3 m ρ) c).trans ?_)
  rw [entry_features, entry_weights2]
  rfl

end Cert.KernelIdeal.Layer

end
-- ==== Proof.RefValue.lean ====
/-
  The reference computes the same layer.

  The reference program spells the layer on the host: the same gather, joins and scatter as the kernel's host side, and
  the two dense stages as a contraction with the transposed weight matrix, the bias vector placed as a row and spread
  over the rows and added, and a maximum against a zero splat.  On the extended reals the contraction is the matrix
  product, the spread bias is the bias row added to every row, and the maximum is the floor at zero: the reference's
  per-edge rows are the edge stage of the same message matrix, and its result is the node stage of the same joined
  features.
-/
import proofs.«106631_j49014166781968_1_alg».proof.Proof.Gen.ReferenceIdeal.Read
import proofs.«106631_j49014166781968_1_alg».proof.Proof.Layer

noncomputable section

namespace Cert.ReferenceIdeal.RefValue

open Cert.ReferenceIdeal Cert.ReferenceIdeal.Gen Cert.ReferenceIdeal.Read
open Idealize.ShloMosaic Idealize.ShloMosaic.TcCoe Idealize.SL.Sem
open Cert.LibRowStages Cert.Stages

/-- The reference's per-edge rows (its contraction, bias and maximum) are the edge stage of the message matrix. -/
theorem edgeRows_eq (x0 : (⟨S100000x128, .f32⟩ : BufTy).Contents (Elt Ideal)) (x1 : (⟨S1600000x3, .f32⟩ : BufTy).Contents (Elt Ideal))
    (x2 : (⟨S1600000, .i32⟩ : BufTy).Contents (Elt Ideal)) (x4 : (⟨S128x131, .f32⟩ : BufTy).Contents (Elt Ideal)) (x5 : (⟨S128, .f32⟩ : BufTy).Contents (Elt Ideal)) :
    val_main_v13 (F := Ideal) x0 x1 x2 x4 x5 = Cert.KernelIdeal.Layer.edgeRows x0 x1 x2 x4 x5 := by
  unfold val_main_v13 val_main_call0_v0 val_main_call0_cst val_main_v12 val_main_v11 val_main_v10 val_main_v9 val_main_v8
  rw [maximumf_hostZero_eq_relu,
    addf_hostBias_eq_addRow _ _ Cert.KernelIdeal.Facts₀.shapeCasts_S128_S1x128,
    dotGeneral_eq_mm _ rfl rfl rfl rfl rfl rfl]
  rfl

/-- The reference's result is the layer of its arguments. -/
theorem reference_eq (x0 : (⟨S100000x128, .f32⟩ : BufTy).Contents (Elt Ideal)) (x1 : (⟨S1600000x3, .f32⟩ : BufTy).Contents (Elt Ideal))
    (x2 x3 : (⟨S1600000, .i32⟩ : BufTy).Contents (Elt Ideal)) (x4 : (⟨S128x131, .f32⟩ : BufTy).Contents (Elt Ideal)) (x5 : (⟨S128, .f32⟩ : BufTy).Contents (Elt Ideal))
    (x6 : (⟨S128x256, .f32⟩ : BufTy).Contents (Elt Ideal)) :
    val_main_v20 (F := Ideal) x0 x1 x2 x3 x4 x5 x6 = Cert.KernelIdeal.Layer.layer x0 x1 x2 x3 x4 x5 x6 := by
  unfold val_main_v20 val_main_call1_v0 val_main_call1_cst val_main_v19 val_main_v18 val_main_v17 val_main_v16
    val_main_v15 val_main_v14 val_main_cst
  rw [edgeRows_eq, maximumf_hostZero_eq_relu, dotGeneral_eq_mm _ rfl rfl rfl rfl rfl rfl]
  rfl

end Cert.ReferenceIdeal.RefValue

end
-- ==== Proof.lean ====
/- One layer of message passing on a graph, kernel against reference, on the extended reals.

   Both programs compute, from node features h [100000, 128], edge features w [1600000, 3], source and destination
   indices, and weights W1 [128, 131], b1 [128], W2 [128, 256]:

     M  = join(h[src], w)                         the per-edge messages, [1600000, 131]
     T  = max(M · W1ᵀ + b1, 0)                    the edge stage, [1600000, 128]
     S  = the rows of T summed at their destination nodes, [100000, 128]
     out = max(join(h, S) · W2ᵀ, 0)               the node stage, [100000, 128]

   The reference does all of it on the host.  The kernel does the gather, the joins and the scatter on the host with
   the same operations, and the two dense stages in two pipelines that walk the rows in blocks (200 blocks of 8000
   edges, 20 blocks of 5000 nodes), each block narrowed to a 16-bit format, multiplied by the transposed weights into
   a zero accumulator, and floored at zero.  On the extended reals the narrowing changes nothing and a matrix unit's
   product is the matrix product, and both stages work one row at a time, so the blocks are the rows of the stage of
   the whole matrix (Proof/Stages.lean, Proof/EdgeRegion.lean, Proof/NodeRegion.lean).  Reading the kernel's buffers
   from its last boundary back to the launch memory (Proof/KernelRun.lean, Proof/Layer.lean) and the reference one
   operation at a time (Proof/RefValue.lean) gives the same function of the arguments on both sides.  No sum is
   reordered, nothing is distributed or cancelled: the equation holds at every extended real, and the inputs'
   finiteness is not used.  The kernel's idealization rewrote no operation, so there is nothing to preserve. -/
import proofs.«106631_j49014166781968_1_alg».proof.Defs
import proofs.«106631_j49014166781968_1_alg».proof.Proof.Gen.Kernel
import proofs.«106631_j49014166781968_1_alg».proof.Proof.Gen.Kernel.Frame
import proofs.«106631_j49014166781968_1_alg».proof.Proof.Gen.KernelIdeal
import proofs.«106631_j49014166781968_1_alg».proof.Proof.Gen.KernelIdeal.Frame
import proofs.«106631_j49014166781968_1_alg».proof.Proof.Gen.ReferenceIdeal
import proofs.«106631_j49014166781968_1_alg».proof.Proof.Gen.Pre_finite_inputs
import proofs.«106631_j49014166781968_1_alg».proof.Proof.Gen.ReferenceIdeal.Run
import proofs.«106631_j49014166781968_1_alg».proof.Proof.Gen.ReferenceIdeal.Read
import proofs.«106631_j49014166781968_1_alg».proof.Proof.KernelRun
import proofs.«106631_j49014166781968_1_alg».proof.Proof.Layer
import proofs.«106631_j49014166781968_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer of their arguments in the result buffer; the arguments agree, so the results do. -/
theorem algebraic : Cert.algebraic_KernelIdeal_ReferenceIdeal := by
  intro m ρ m' ρ' _ hagree
  refine ⟨fun c => Cert.KernelIdeal.Gen.W4 m ρ c (Proc.devRef .tc Cert.KernelIdeal.main_v14),
    Cert.KernelIdeal.Run.result_run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v20_eq, Cert.ReferenceIdeal.RefValue.reference_eq, a0, a1, a2, a3, a4, a5, a6]
  exact (Cert.KernelIdeal.Layer.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
